-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64x64 : Shape := ⟨4, ![16, 2048, 64, 64]⟩
abbrev S256x2048 : Shape := ⟨2, ![256, 2048]⟩
abbrev S256 : Shape := ⟨1, ![256]⟩
abbrev S_ : Shape := ⟨0, ![]⟩

class Facts : Prop where
  bcast_S_S16x2048x64x64 : S_.BroadcastsInDim S16x2048x64x64 (![] : Fin 0 → Fin S16x2048x64x64.rank)
  reducesTo_S16x2048x64x64_S_d0_1_2_3 : S16x2048x64x64.ReducesTo [0, 1, 2, 3] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S16x2048x64x64 .f32) (main_arg1 : FVec F S256x2048 .f32) (main_arg2 : FVec F S256 .f32) (main_arg3 : FVec F S256 .f32) (main_arg4 : FVec F S256 .f32) (main_arg5 : FVec F S256 .f32) : IVec S_ 1 :=
  let main_v0 : FVec F S16x2048x64x64 .f32 := Host.absf main_arg0
  let main_cst : FVec F S_ .f32 := constant S_ .f32 0x7F800000#32
  let main_v1 : FVec F S16x2048x64x64 .f32 := broadcastInDim S16x2048x64x64 ![] bcast_S_S16x2048x64x64 main_cst
  let main_v2 : IVec S16x2048x64x64 1 := cmpf .olt main_v0 main_v1
  let main_c : IVec S_ 1 := constantI S_ 1 1#1
  let main_v3 : IVec S_ 1 := (fun x v => Host.reduce IntOp.andi x v reducesTo_S16x2048x64x64_S_d0_1_2_3 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16x2048x64x64 : Shape := ⟨4, ![16, 2048, 64, 64]⟩
abbrev S256x2048 : Shape := ⟨2, ![256, 2048]⟩
abbrev S256 : Shape := ⟨1, ![256]⟩
abbrev S16x2048x4096 : Shape := ⟨3, ![16, 2048, 4096]⟩
abbrev S16x2048 : Shape := ⟨2, ![16, 2048]⟩
abbrev S8x128x4096 : Shape := ⟨3, ![8, 128, 4096]⟩
abbrev S8x128 : Shape := ⟨2, ![8, 128]⟩
abbrev S16x256x4096 : Shape := ⟨3, ![16, 256, 4096]⟩
abbrev S16x256x512 : Shape := ⟨3, ![16, 256, 512]⟩
abbrev S16x256 : Shape := ⟨2, ![16, 256]⟩
abbrev S1x256 : Shape := ⟨2, ![1, 256]⟩
abbrev S16x256x1 : Shape := ⟨3, ![16, 256, 1]⟩
abbrev S16x256x64x64 : Shape := ⟨4, ![16, 256, 64, 64]⟩

abbrev nBuf : Space → Nat
  | .hbm => 10
  | .vmem => 12
  | .smem => 0
  | _ => 0

abbrev bufTy : (tb : Table) → Fin (tcTables nBuf tb) → BufTy
  | .hbm, ⟨0, _⟩ => ⟨S16x2048x64x64, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S16x2048x4096, .f32⟩
  | .hbm, ⟨7, _⟩ => ⟨S16x2048, .f32⟩
  | .hbm, ⟨8, _⟩ => ⟨S16x256x4096, .f32⟩
  | .hbm, ⟨9, _⟩ => ⟨S16x256x64x64, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S16x2048, .f32⟩
  | .local _ .vmem, ⟨5, _⟩ => ⟨S256x2048, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S16x256x512, .f32⟩
  | .local _ .vmem, ⟨11, _⟩ => ⟨S16x256x512, .f32⟩
  | _, _ => ⟨S16x2048x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S16x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S16x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S16x2048x64x64_S16x2048x4096 : S16x2048x64x64.ShapeCasts S16x2048x4096
  inb_S8x128x4096_S8x128x4096_0_0_0 : ∀ a, (![0, 0, 0] : Fin 3 → Nat) a + S8x128x4096.size a ≤ S8x128x4096.size a
  h_S8x128x4096 : 0 < S8x128x4096.numel
  shapeCasts_S8x128x4096_S8x128x4096 : S8x128x4096.ShapeCasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256_S256_0 : ∀ a, (![0] : Fin 1 → Nat) a + S256.size a ≤ S256.size a
  h_S256 : 0 < S256.numel
  shapeCasts_S256_S1x256 : S256.ShapeCasts S1x256
  broadcasts_S1x256_S16x256 : S1x256.Broadcasts S16x256
  shapeCasts_S16x256_S16x256x1 : S16x256.ShapeCasts S16x256x1
  shapeCasts_S16x256x1_S16x256x1 : S16x256x1.ShapeCasts S16x256x1
  broadcasts_S16x256x1_S16x256x512 : S16x256x1.Broadcasts S16x256x512
  inb_S16x256x512_S16x256x512_0_0_0 : ∀ a, (![0, 0, 0] : Fin 3 → Nat) a + S16x256x512.size a ≤ S16x256x512.size a
  h_S16x256x512 : 0 < S16x256x512.numel
  shapeCasts_S16x256x4096_S16x256x64x64 : S16x256x4096.ShapeCasts S16x256x64x64
  dot_S16x2048_S256x2048_S16x256_1_1_0_0_n_n_wf : DotDims.WF S16x2048 S256x2048 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S16x2048x4096.size a
  hwx0_0 : ∀ i : grid0.Coords, EltTy.bits .f32 = 32 ∨ (Rect.block (s := S16x2048x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x2048.size a
  hwx0_1 : ∀ i : grid0.Coords, EltTy.bits .f32 = 32 ∨ (Rect.block (s := S16x2048) S8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x2048.size a ≤ S16x2048.size a
  hwx1_0 : ∀ i : grid1.Coords, EltTy.bits .f32 = 32 ∨ (Rect.block (s := S16x2048) S16x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S256x2048.size a
  hwx1_1 : ∀ i : grid1.Coords, EltTy.bits .f32 = 32 ∨ (Rect.block (s := S256x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16x256x512.size a ≤ S16x256x4096.size a
  hwx1_6 : ∀ i : grid1.Coords, EltTy.bits .f32 = 32 ∨ (Rect.block (s := S16x256x4096) S16x256x512.size (cc1_transform_6 i) (hinb1_6 i)).WholeWords (EltTy.packing .f32)

variable [Facts₀]

def dot_S16x2048_S256x2048_S16x256_1_1_0_0_n_n : DotDims S16x2048 S256x2048 S16x256 where
  lhsContracting := [1]
  rhsContracting := [1]
  lhsNonContracting := [0]
  rhsNonContracting := [0]
  lhsBatch := []
  rhsBatch := []
  wf := dot_S16x2048_S256x2048_S16x256_1_1_0_0_n_n_wf

abbrev win0_0 : Pipeline.Window sig grid0 :=
  Pipeline.Window.ofSpec (Memref.whole main_v0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S16x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S16x256x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x2048x64x64 : Shape := ⟨4, ![16, 2048, 64, 64]⟩
abbrev S256x2048 : Shape := ⟨2, ![256, 2048]⟩
abbrev S256 : Shape := ⟨1, ![256]⟩
abbrev S_ : Shape := ⟨0, ![]⟩
abbrev S16x2048 : Shape := ⟨2, ![16, 2048]⟩
abbrev S16x256 : Shape := ⟨2, ![16, 256]⟩
abbrev S1x256 : Shape := ⟨2, ![1, 256]⟩
abbrev S16x256x1x1 : Shape := ⟨4, ![16, 256, 1, 1]⟩
abbrev S16x256x64x64 : Shape := ⟨4, ![16, 256, 64, 64]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x64x64, .f32⟩
  | .hbm, ⟨1, _⟩ => ⟨S256x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S1x256, .f32⟩
  | .hbm, ⟨17, _⟩ => ⟨S16x256, .f32⟩
  | .hbm, ⟨18, _⟩ => ⟨S16x256, .f32⟩
  | .hbm, ⟨19, _⟩ => ⟨S256, .f32⟩
  | .hbm, ⟨20, _⟩ => ⟨S1x256, .f32⟩
  | .hbm, ⟨21, _⟩ => ⟨S16x256, .f32⟩
  | .hbm, ⟨22, _⟩ => ⟨S16x256, .f32⟩
  | .hbm, ⟨23, _⟩ => ⟨S1x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256x1x1, .f32⟩
  | .hbm, ⟨30, _⟩ => ⟨S16x256x64x64, .f32⟩
  | _, _ => ⟨S16x2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S16x2048x64x64_S16x2048_d2_3 : S16x2048x64x64.ReducesTo [2, 3] S16x2048
  h_S_ : 0 < S_.numel
  bcast_S_S16x2048 : S_.BroadcastsInDim S16x2048 (![] : Fin 0 → Fin S16x2048.rank)
  bcast_S_S256 : S_.BroadcastsInDim S256 (![] : Fin 0 → Fin S256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S16x256_S16x256x1x1_0_1 : S16x256.BroadcastsInDim S16x256x1x1 (![0, 1] : Fin 2 → Fin S16x256x1x1.rank)
  bcast_S16x256x1x1_S16x256x64x64_0_1_2_3 : S16x256x1x1.BroadcastsInDim S16x256x64x64 (![0, 1, 2, 3] : Fin 4 → Fin S16x256x64x64.rank)
  dot_S16x2048_S256x2048_S16x256_1_1_0_0_n_n_wf : DotDims.WF S16x2048 S256x2048 S16x256 [1] [1] [0] [0] [] []

variable [Facts₀]

def dot_S16x2048_S256x2048_S16x256_1_1_0_0_n_n : DotDims S16x2048 S256x2048 S16x256 where
  lhsContracting := [1]
  rhsContracting := [1]
  lhsNonContracting := [0]
  rhsNonContracting := [0]
  lhsBatch := []
  rhsBatch := []
  wf := dot_S16x2048_S256x2048_S16x256_1_1_0_0_n_n_wf

class Facts : Prop extends Facts₀ where

variable [Facts]
-- ==== Proof.RunAll.lean ====
/-
  The run of the whole program, read at every buffer it leaves.

  The program is four stretches in a row: a host reshape of the input to [16, 2048, 4096], the pooling
  pallas_call, the projection pallas_call, and a host reshape of its [16, 256, 4096] result to [16, 256, 64, 64].
  The generated frame runs these stretches one after the other and keeps, at each boundary, what every buffer
  holds (the valuations `W0` … `W4`); its own conclusion only keeps the argument arrays.  Here the same run
  is concluded with the last boundary's contents at EVERY buffer that is not scoped to a region: each such
  buffer ends holding `W4` there.  The result array's value is then read off `W4` (module `KernelValue`).
-/
import proofs.«136473_j38268158607596_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every buffer
    that outlives the regions holds the contents the last boundary of the run assigns it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Whole

end
-- ==== Proof.Spec.lean ====
/-
  What the layer computes, as one function of its six arguments.

  The layer averages every 64 × 64 plane of the input `x[b, c, ·, ·]`, multiplies the [16, 2048] matrix of
  averages by the transposed weight matrix `W[o, c]`, applies an inference-mode batch normalisation per output
  channel `o` and a rectifier, and writes the resulting number at every position of the output plane
  `out[b, o, ·, ·]`.  On the extended reals:

      mean(b, c)  = (Σ_h Σ_w x[b, c, h, w]) · 2⁻¹²
      y(b, o)     = Σ_c mean(b, c) · W[o, c]
      out[b,o,·,·] = max ((y(b, o) − μ[o]) · (γ[o] · rsqrt(σ²[o] + ε)) + β[o]) 0
-/
import Idealize.ShloMosaic.PureOps.Ideal
import Idealize.ShloMosaic.Lib.ValueIdx

noncomputable section

open scoped BigOperators

namespace Cert.PoolSpec

open Idealize.ShloMosaic Idealize.ShloMosaic.ValueIdx

/-- Inference-mode batch normalisation of one number, then the rectifier; `ε` is the word both programs spell. -/
def normRelu (y mu g va be : EReal) : EReal :=
  max ((y - mu) * (g * Ideal.rsqrt (va + Ideal.ofBits .f32 0x3727C5AC#32)) + be) (Ideal.ofBits .f32 0x00000000#32)

/-- The average of plane `(b, c)`: its 4096 entries added, times the word of 2⁻¹². -/
def planeMean (x : (⟨4, ![16, 2048, 64, 64]⟩ : Shape).Idx → EReal) (b : Fin 16) (c : Fin 2048) : EReal :=
  (∑ h : Fin 64, ∑ w : Fin 64, x (ix4 b c h w)) * Ideal.ofBits .f32 0x39800000#32

/-- The same average of a plane that is stored flattened, 4096 entries in a row. -/
def rowMean (x0 : (⟨3, ![16, 2048, 4096]⟩ : Shape).Idx → EReal) : (⟨2, ![16, 2048]⟩ : Shape).Idx → EReal :=
  fun j => (∑ k : Fin 4096, x0 (ix3 (j 0) (j 1) k)) * Ideal.ofBits .f32 0x39800000#32

/-- Output channel `o` of batch element `b`, from the matrix of averages: the projection, normalised and rectified. -/
def head (p : (⟨2, ![16, 2048]⟩ : Shape).Idx → EReal) (W : (⟨2, ![256, 2048]⟩ : Shape).Idx → EReal)
    (g be mu va : (⟨1, ![256]⟩ : Shape).Idx → EReal) (b : Fin 16) (o : Fin 256) : EReal :=
  normRelu (∑ c : Fin 2048, p (ix2 b c) * W (ix2 o c)) (mu (ix1 o)) (g (ix1 o)) (va (ix1 o)) (be (ix1 o))

/-- The projection kernel's whole output, planes still flattened: `head` at every one of the 4096 positions. -/
def headFlat (p : (⟨2, ![16, 2048]⟩ : Shape).Idx → EReal) (W : (⟨2, ![256, 2048]⟩ : Shape).Idx → EReal)
    (g be mu va : (⟨1, ![256]⟩ : Shape).Idx → EReal) : (⟨3, ![16, 256, 4096]⟩ : Shape).Idx → EReal :=
  fun i => head p W g be mu va (i 0) (i 1)

/-- The layer's result. -/
def result (x : (⟨4, ![16, 2048, 64, 64]⟩ : Shape).Idx → EReal) (W : (⟨2, ![256, 2048]⟩ : Shape).Idx → EReal)
    (g be mu va : (⟨1, ![256]⟩ : Shape).Idx → EReal) : (⟨4, ![16, 256, 64, 64]⟩ : Shape).Idx → EReal :=
  fun i => head (fun j => planeMean x (j 0) (j 1)) W g be mu va (i 0) (i 1)

end Cert.PoolSpec

end
-- ==== Proof.LibSpreadLast.lean ====
/-
  A matrix spread along a new last axis, read at an index.

  A kernel that writes one number per (row, column) pair into every position of a third axis does it in two
  steps: the [a, b] matrix is viewed as [a, b, 1] (a cast that adds a unit axis at the end), and that is broadcast
  to [a, b, n].  Read at (p, q, k) the result is the matrix's entry (p, q), whatever k is.
-/
import Idealize.ShloMosaic.Lib.Pipeline.Value
import Idealize.ShloMosaic.Lib.ValueIdx

namespace Cert.LibSpreadLast

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, b, 1]` array broadcast to `[a, b, n]` reads, at `(p, q, k)`, the operand at `(p, q, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else k.val
    rw [if_pos rfl]

/-- The two steps together: an `[a, b]` matrix spread over `[a, b, n]` reads, at `(p, q, k)`, its entry `(p, q)`. -/
theorem spread_apply {a b n : ℕ} (x : (⟨2, ![a, b]⟩ : Shape).Idx → α)
    (h1 : (⟨2, ![a, b]⟩ : Shape).ShapeCasts ⟨3, ![a, b, 1]⟩)
    (h3 : (⟨3, ![a, b, 1]⟩ : Shape).Broadcasts ⟨3, ![a, b, n]⟩) (p : Fin a) (q : Fin b) (k : Fin n) :
    broadcastTo ⟨3, ![a, b, n]⟩ (shapeCast ⟨3, ![a, b, 1]⟩ x h1) h3 (ix3 p q k) = x (ix2 p q) :=
  (broadcastTo_ab1_abn_apply _ h3 p q k).trans (shapeCast_ab_ab1_apply x h1 p q 0)

end Cert.LibSpreadLast
-- ==== Proof.LibSumContr.lean ====
/-
  A sum over the contraction index of a matrix product that contracts ONE axis, re-indexed by that axis's coordinate.

  A `tpu.matmul` or a host `dot_general` at the ideal values, read at an output index `j`, is a sum over the
  product's contraction index `q` of `l (lhsIdx j q) * r (rhsIdx j q)`. When one axis is contracted, `q` is just a
  coordinate `k : Fin n`; if at coordinate `k` the two operand indices are `L k` and `R k`, the sum is
  `Σ_k l (L k) * r (R k)` (any dimension numbers, any shapes, values in any commutative additive monoid with a product).
-/
import Idealize.ShloMosaic.Lib.ValueIdx

namespace Cert.LibSumContr

open Idealize.ShloMosaic Idealize.ShloMosaic.ValueIdx

/-- The sum over a one-axis contraction index is the sum over that axis's coordinate of the products of the two
    operands at the indices the coordinate selects. -/
theorem sum_contr {M : Type*} [AddCommMonoid M] [Mul M] {sl sr so : Shape} (D : DotDims sl sr so) (n : ℕ)
    (hr : D.contr.rank = 1) (hs : D.contr.size ⟨0, by omega⟩ = n) (l : sl.Idx → M) (r : sr.Idx → M) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    ∑ q : D.contr.Idx, l (D.lhsIdx j q) * r (D.rhsIdx j q) = ∑ k : Fin n, l (L k) * r (R k) := by
  rw [← Equiv.sum_comp (contrEquiv1 D n hr hs).symm]
  exact Finset.sum_congr rfl fun k _ => by rw [hL k, hR k]

end Cert.LibSumContr
-- ==== Proof.Payloads.lean ====
/-
  What each of the two kernel bodies stores, entry by entry, on the extended reals.

  The pooling body loads an [8, 128, 4096] block, adds each row of 4096 entries and multiplies the sum by the word
  of 2⁻¹²: entry (p, q) of its [8, 128] result is the average of row (p, q) of the block.

  The projection body loads the whole [16, 2048] matrix of averages, the [256, 2048] weights and the four
  per-channel vectors, multiplies the averages by the transposed weights (a change of float format is the identity
  here, and the matrix unit's product into a zero accumulator is the plain sum of products), normalises and
  rectifies each of the [16, 256] numbers, and spreads each over the 512 positions of its block row: entry
  (b, o, k) of its [16, 256, 512] result is `head … b o`, whatever `k`.
-/
import proofs.«136473_j38268158607596_2_alg».proof.Proof.Gen.KernelIdeal.Skeleton
import proofs.«136473_j38268158607596_2_alg».proof.Proof.Spec
import proofs.«136473_j38268158607596_2_alg».proof.Proof.LibSpreadLast
import proofs.«136473_j38268158607596_2_alg».proof.Proof.LibSumContr
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Bodies

open Cert.KernelIdeal Cert.KernelIdeal.Gen Cert.PoolSpec
open Idealize.ShloMosaic Idealize.ShloMosaic.TcCoe Idealize.ShloMosaic.ValueIdx

/-- Entry (p, q) of what the pooling body stores: the sum of row (p, q) of the loaded block times the word of 2⁻¹². -/
theorem pool_pay (x0 : Vec Ideal S8x128x4096 .f32) (p : Fin 8) (q : Fin 128) :
    k0_pay1 x0 (ix2 p q) = (∑ k : Fin 4096, x0 (ix3 p q k)) * Ideal.ofBits .f32 0x39800000#32 := by
  unfold k0_pay1
  show (multiReduction .add [2] S8x128 (shapeCast S8x128x4096 x0 shapeCasts_S8x128x4096_S8x128x4096) 0x00000000#32
      reduces_S8x128x4096_S8x128 (.inl rfl) rfl (ix2 p q)) * Ideal.ofBits .f32 0x39800000#32 = _
  refine congrArg (· * Ideal.ofBits .f32 0x39800000#32) ?_
  refine (Ideal.multiReduction_add_single _ 0x00000000#32 reduces_S8x128x4096_S8x128 (.inl rfl) rfl (ix2 p q)).trans ?_
  refine Finset.sum_congr rfl fun k _ => ?_
  rw [shapeCast_self]
  refine congrArg x0 (funext fun a => Fin.ext ?_)
  match a with
  | ⟨0, _⟩ => rfl
  | ⟨1, _⟩ => rfl
  | ⟨2, _⟩ => rfl

/-- The left operand's index, for output index `j` and any contraction index: its row is `j`'s row. -/
theorem lhs_row (j : S16x256.Idx) (q : dot_S16x2048_S256x2048_S16x256_1_1_0_0_n_n.contr.Idx) :
    (dot_S16x2048_S256x2048_S16x256_1_1_0_0_n_n.lhsIdx j q 0).val = (j 0).val := by
  unfold DotDims.lhsIdx
  rw [dif_neg (show ¬(0 : Fin S16x2048.rank) ∈ dot_S16x2048_S256x2048_S16x256_1_1_0_0_n_n.lhsBatch by decide),
    dif_pos (show (0 : Fin S16x2048.rank) ∈ dot_S16x2048_S256x2048_S16x256_1_1_0_0_n_n.lhsNonContracting by decide)]
  rfl

/-- The right operand's index: its row is `j`'s column (the weights are used transposed). -/
theorem rhs_row (j : S16x256.Idx) (q : dot_S16x2048_S256x2048_S16x256_1_1_0_0_n_n.contr.Idx) :
    (dot_S16x2048_S256x2048_S16x256_1_1_0_0_n_n.rhsIdx j q 0).val = (j 1).val := by
  unfold DotDims.rhsIdx
  rw [dif_neg (show ¬(0 : Fin S256x2048.rank) ∈ dot_S16x2048_S256x2048_S16x256_1_1_0_0_n_n.rhsBatch by decide),
    dif_pos (show (0 : Fin S256x2048.rank) ∈ dot_S16x2048_S256x2048_S16x256_1_1_0_0_n_n.rhsNonContracting by decide)]
  rfl

/-- The matrix unit's product of the averages by the transposed weights, into a zero accumulator, at (b, o): the sum
    over the 2048 input channels of average (b, c) times weight (o, c). -/
theorem proj_matmul (l : FVec Ideal S16x2048 .bf16) (r : FVec Ideal S256x2048 .bf16)
    (b : Fin 16) (o : Fin 256) :
    FloatOps.matmul (F := Ideal) dot_S16x2048_S256x2048_S16x256_1_1_0_0_n_n none l r
        (constant S16x256 .f32 0x00000000#32) (ix2 b o)
      = ∑ c : Fin 2048, l (ix2 b c) * r (ix2 o c) := by
  refine (Ideal.matmul_constant_zero_apply dot_S16x2048_S256x2048_S16x256_1_1_0_0_n_n none l r (ix2 b o)).trans ?_
  refine Cert.LibSumContr.sum_contr (M := EReal) dot_S16x2048_S256x2048_S16x256_1_1_0_0_n_n 2048 rfl rfl l r (ix2 b o)
    (fun c => ix2 b c) (fun c => ix2 o c) (fun c => ?_) (fun c => ?_)
  · have hk := ValueIdx.contrEquiv1_symm_val dot_S16x2048_S256x2048_S16x256_1_1_0_0_n_n 2048 rfl rfl c
    refine funext fun a => Fin.ext ?_
    match a with
    | ⟨0, _⟩ => exact lhs_row _ _
    | ⟨1, _⟩ => exact (dot_S16x2048_S256x2048_S16x256_1_1_0_0_n_n.lhsIdx_val_of_single rfl _ _).trans hk
  · have hk := ValueIdx.contrEquiv1_symm_val dot_S16x2048_S256x2048_S16x256_1_1_0_0_n_n 2048 rfl rfl c
    refine funext fun a => Fin.ext ?_
    match a with
    | ⟨0, _⟩ => exact rhs_row _ _
    | ⟨1, _⟩ => exact (dot_S16x2048_S256x2048_S16x256_1_1_0_0_n_n.rhsIdx_val_of_single rfl _ _).trans hk

/-- A per-channel vector viewed as one row and repeated over the 16 batch rows reads, at (b, o), its entry o. -/
theorem row_spread (v : (⟨1, ![256]⟩ : Shape).Idx → EReal) (b : Fin 16) (o : Fin 256) :
    broadcastTo S16x256 (shapeCast S1x256 v shapeCasts_S256_S1x256) broadcasts_S1x256_S16x256 (ix2 b o) = v (ix1 o) :=
  (broadcastTo_1b_ab_apply _ broadcasts_S1x256_S16x256 b o).trans (shapeCast_a_1a_apply v shapeCasts_S256_S1x256 0 o)

/-- Entry (b, o, k) of what the projection body stores is output channel o of batch element b. -/
theorem proj_pay (x0 : Vec Ideal S16x2048 .f32) (x1 : Vec Ideal S256x2048 .f32) (x2 x3 x4 x5 : Vec Ideal S256 .f32)
    (b : Fin 16) (o : Fin 256) (k : Fin 512) :
    k1_pay1 x0 x1 x2 x3 x4 x5 (ix3 b o k) = head x0 x1 x2 x3 x4 x5 b o := by
  unfold k1_pay1
  rw [shapeCast_self, shapeCast_self]
  refine (Cert.LibSpreadLast.spread_apply _ shapeCasts_S16x256_S16x256x1 broadcasts_S16x256x1_S16x256x512 b o k).trans ?_
  show max ((FloatOps.matmul (F := Ideal) (φ₁ := .bf16) (φ₂ := .bf16) dot_S16x2048_S256x2048_S16x256_1_1_0_0_n_n none (x0 : FVec Ideal S16x2048 .bf16) (x1 : FVec Ideal S256x2048 .bf16)
        (constant S16x256 .f32 0x00000000#32) (ix2 b o)
      - broadcastTo S16x256 (shapeCast S1x256 x4 shapeCasts_S256_S1x256) broadcasts_S1x256_S16x256 (ix2 b o))
      * broadcastTo S16x256 (mulf (shapeCast S1x256 x2 shapeCasts_S256_S1x256)
          (rsqrt (addf (shapeCast S1x256 x5 shapeCasts_S256_S1x256) (broadcast S1x256 (Scalar.ofBits .f32 0x3727C5AC#32)))))
          broadcasts_S1x256_S16x256 (ix2 b o)
      + broadcastTo S16x256 (shapeCast S1x256 x3 shapeCasts_S256_S1x256) broadcasts_S1x256_S16x256 (ix2 b o))
    (Ideal.ofBits .f32 0x00000000#32) = _
  rw [proj_matmul, row_spread, row_spread, broadcastTo_1b_ab_apply]
  show max ((_ - _) * (shapeCast S1x256 x2 shapeCasts_S256_S1x256 (ix2 (0 : Fin 1) o)
      * Ideal.rsqrt (shapeCast S1x256 x5 shapeCasts_S256_S1x256 (ix2 (0 : Fin 1) o) + Ideal.ofBits .f32 0x3727C5AC#32)) + _) _ = _
  rw [shapeCast_a_1a_apply, shapeCast_a_1a_apply]
  rfl

end Cert.KernelIdeal.Bodies

end
-- ==== Proof.Blocks.lean ====
/-
  From blocks to whole arrays: what each of the two pallas_calls leaves in its output array.

  The pooling call walks a 2 × 16 grid.  At point (i, j) it reads block (i, j, 0) of the flattened input — 8 batch
  rows, 128 channels, all 4096 positions — and writes block (i, j) of the [16, 2048] output: the averages of those
  8 × 128 rows.  Entry (b, c) of a block sits at row 8·i + b, column 128·j + c of its array, on both sides, so the
  block written is a block of ONE function of the input array, the matrix of row averages, and since the 32 blocks
  tile the output, the output ends holding that matrix.

  The projection call walks 8 points.  Every point reads all of its six input arrays (block 0 of each is the whole
  array) and writes block (0, 0, t) of the [16, 256, 4096] output, 512 positions wide; each entry of it is the
  normalised projection for its (batch, channel) pair.  The 8 blocks tile the output.
-/
import proofs.«136473_j38268158607596_2_alg».proof.Proof.Gen.KernelIdeal.Frame
import proofs.«136473_j38268158607596_2_alg».proof.Proof.Spec
import proofs.«136473_j38268158607596_2_alg».proof.Proof.Payloads
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Cert.KernelIdeal.Bodies Cert.PoolSpec
open Idealize.ShloMosaic Idealize.ShloMosaic.TcCoe Idealize.SL.Sem Idealize.ShloMosaic.ValueIdx
open Idealize.ShloMosaic.Pipeline (Dat)

-- the buffer contents a region is entered with
variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The pooling call -/

/-- At every point the input block has the output block's two leading block indices and block index 0 along the
    flattened plane; the output's block indices stay below 2 and 16. -/
theorem pool_idx : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 1 ∧ win0_1.index t (1 : Fin 2) ≤ 15 :=
  (by decide +kernel : ∀ t : Fin grid0.N, _)

/-- Every output block (q0, q1) is some point's. -/
theorem pool_onto : ∀ (q0 : Fin 2) (q1 : Fin 16), ∃ t : Fin cfg0.N, win0_1.index t = ![q0.val, q1.val] :=
  (by decide +kernel : ∀ (q0 : Fin 2) (q1 : Fin 16), ∃ t : Fin grid0.N, win0_1.index t = ![q0.val, q1.val])

/-- Entry `y` of the input block at point `t` is the array's entry at block index × block size + `y`, axis by axis. -/
theorem pool_block_apply (c : Dev nD) (t : Fin cfg0.N) (y : S8x128x4096.Idx) (i : S16x2048x4096.Idx)
    (h0 : (i 0).val = win0_0.index t (0 : Fin 3) * 8 + (y 0).val)
    (h1 : (i 1).val = win0_0.index t (1 : Fin 3) * 128 + (y 1).val)
    (h2 : (i 2).val = win0_0.index t (2 : Fin 3) * 4096 + (y 2).val) :
    (iblk0 V c 0 t : Vec Ideal S8x128x4096 .f32) y = (V c main_v0 : S16x2048x4096.Idx → EReal) i := by
  unfold iblk0
  rw [View.read_apply]
  show V c main_v0 _ = V c main_v0 _
  congr 1
  funext a
  apply Fin.ext
  match a with
  | ⟨0, _⟩ => show win0_0.index t (0 : Fin 3) * 8 + 1 * (y 0).val = (i 0).val; omega
  | ⟨1, _⟩ => show win0_0.index t (1 : Fin 3) * 128 + 1 * (y 1).val = (i 1).val; omega
  | ⟨2, _⟩ => show win0_0.index t (2 : Fin 3) * 4096 + 1 * (y 2).val = (i 2).val; omega

/-- What point `t` writes back is block `t` of the matrix of row averages of the input array. -/
theorem pool_flushed (c : Dev nD) (t : Fin cfg0.N) :
    (dat0 V c).flushed 1 t = ((cfg0.win 1).blk t).view.read (Elt Ideal) (rowMean (V c main_v0)) := by
  show (cfg0.win 1).cut (grid0.coords t) ((dat0 V c).after 1 t) = _
  rw [after0_1]
  unfold out0_1
  rw [View.canon_unit_zero hz2]
  simp only [View.ld_unit_zero (S := S8x128x4096) hz3]
  obtain ⟨e0, e1, e2, -, -⟩ := pool_idx t
  funext j
  refine ((congrArg (k0_pay1 (iblk0 V c 0 t)) (eq_ix2 (n0 := 8) (n1 := 128) j)).trans
    (pool_pay (iblk0 V c 0 t) (j 0) (j 1))).trans ?_
  rw [View.read_apply]
  unfold rowMean
  refine congrArg (· * Ideal.ofBits .f32 0x39800000#32) (Finset.sum_congr rfl fun k _ => ?_)
  refine pool_block_apply V c t _ _ ?_ ?_ ?_
  · show win0_1.index t (0 : Fin 2) * 8 + 1 * (j 0).val = win0_0.index t (0 : Fin 3) * 8 + (j 0).val
    omega
  · show win0_1.index t (1 : Fin 2) * 128 + 1 * (j 1).val = win0_0.index t (1 : Fin 3) * 128 + (j 1).val
    omega
  · show k.val = win0_0.index t (2 : Fin 3) * 4096 + k.val
    omega

/-- An index of the output array is in point `t`'s block iff each coordinate is in the block's range on its axis. -/
theorem pool_mem (t : Fin cfg0.N) (i : S16x2048.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v1).slice (win0_1.rect t)).set ↔ _
  rw [View.set_slice_whole, Rect.mem_set_unit]
  exact Iff.rfl

/-- After the pooling call its output array holds the matrix of row averages of its input array. -/
theorem pool_final (c : Dev nD) : (dat0 V c).arrAt 1 cfg0.N = rowMean (V c main_v0) :=
  (dat0 V c).arrAt_eq_of_cover 1 (rowMean (V c main_v0)) (fun t _ => pool_flushed V c t) fun i => by
    have hi0 : (i 0).val < 16 := (i 0).isLt
    have hi1 : (i 1).val < 2048 := (i 1).isLt
    obtain ⟨t, ht⟩ := pool_onto ⟨(i 0).val / 8, by omega⟩ ⟨(i 1).val / 128, by omega⟩
    have q0 : win0_1.index t (0 : Fin 2) = (i 0).val / 8 := congrFun ht 0
    have q1 : win0_1.index t (1 : Fin 2) = (i 1).val / 128 := congrFun ht 1
    refine ⟨t, flush0_1 t, ?_⟩
    rw [pool_mem]
    intro a
    match a with
    | ⟨0, _⟩ =>
      show win0_1.index t (0 : Fin 2) * 8 ≤ (i 0).val ∧ (i 0).val < win0_1.index t (0 : Fin 2) * 8 + 8
      omega
    | ⟨1, _⟩ =>
      show win0_1.index t (1 : Fin 2) * 128 ≤ (i 1).val ∧ (i 1).val < win0_1.index t (1 : Fin 2) * 128 + 128
      omega

/-! ## The projection call -/

/-- At every point each input window is at block 0 on every axis, and the output block is (0, 0, t). -/
theorem proj_idx : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0
    ∧ win1_4.index t (0 : Fin 1) = 0 ∧ win1_5.index t (0 : Fin 1) = 0
    ∧ win1_6.index t (0 : Fin 3) = 0 ∧ win1_6.index t (1 : Fin 3) = 0 ∧ win1_6.index t (2 : Fin 3) = t.val :=
  (by decide +kernel : ∀ t : Fin grid1.N, _)

/-- The first input window's block is the whole matrix of averages … -/
theorem proj_block0 (c : Dev nD) (t : Fin cfg1.N) :
    (iblk1 V c 0 t : Vec Ideal S16x2048 .f32) = (V c main_v1 : S16x2048.Idx → EReal) := by
  obtain ⟨e0, e1, -⟩ := proj_idx t
  funext y
  unfold iblk1
  rw [View.read_apply]
  show V c main_v1 _ = V c main_v1 _
  congr 1
  funext a
  apply Fin.ext
  match a with
  | ⟨0, _⟩ => show win1_0.index t (0 : Fin 2) * 16 + 1 * (y 0).val = (y 0).val; omega
  | ⟨1, _⟩ => show win1_0.index t (1 : Fin 2) * 2048 + 1 * (y 1).val = (y 1).val; omega

/-- … the second's the whole weight matrix … -/
theorem proj_block1 (c : Dev nD) (t : Fin cfg1.N) :
    (iblk1 V c 1 t : Vec Ideal S256x2048 .f32) = (V c main_arg1 : S256x2048.Idx → EReal) := by
  obtain ⟨-, -, e0, e1, -⟩ := proj_idx t
  funext y
  unfold iblk1
  rw [View.read_apply]
  show V c main_arg1 _ = V c main_arg1 _
  congr 1
  funext a
  apply Fin.ext
  match a with
  | ⟨0, _⟩ => show win1_1.index t (0 : Fin 2) * 256 + 1 * (y 0).val = (y 0).val; omega
  | ⟨1, _⟩ => show win1_1.index t (1 : Fin 2) * 2048 + 1 * (y 1).val = (y 1).val; omega

/-- … and each of the four others' a whole per-channel vector. -/
theorem proj_block2 (c : Dev nD) (t : Fin cfg1.N) :
    (iblk1 V c 2 t : Vec Ideal S256 .f32) = (V c main_arg2 : S256.Idx → EReal) := by
  obtain ⟨-, -, -, -, e, -⟩ := proj_idx t
  funext y
  unfold iblk1
  rw [View.read_apply]
  show V c main_arg2 _ = V c main_arg2 _
  congr 1
  funext a
  apply Fin.ext
  match a with
  | ⟨0, _⟩ => show win1_2.index t (0 : Fin 1) * 256 + 1 * (y 0).val = (y 0).val; omega

theorem proj_block3 (c : Dev nD) (t : Fin cfg1.N) :
    (iblk1 V c 3 t : Vec Ideal S256 .f32) = (V c main_arg3 : S256.Idx → EReal) := by
  obtain ⟨-, -, -, -, -, e, -⟩ := proj_idx t
  funext y
  unfold iblk1
  rw [View.read_apply]
  show V c main_arg3 _ = V c main_arg3 _
  congr 1
  funext a
  apply Fin.ext
  match a with
  | ⟨0, _⟩ => show win1_3.index t (0 : Fin 1) * 256 + 1 * (y 0).val = (y 0).val; omega

theorem proj_block4 (c : Dev nD) (t : Fin cfg1.N) :
    (iblk1 V c 4 t : Vec Ideal S256 .f32) = (V c main_arg4 : S256.Idx → EReal) := by
  obtain ⟨-, -, -, -, -, -, e, -⟩ := proj_idx t
  funext y
  unfold iblk1
  rw [View.read_apply]
  show V c main_arg4 _ = V c main_arg4 _
  congr 1
  funext a
  apply Fin.ext
  match a with
  | ⟨0, _⟩ => show win1_4.index t (0 : Fin 1) * 256 + 1 * (y 0).val = (y 0).val; omega

theorem proj_block5 (c : Dev nD) (t : Fin cfg1.N) :
    (iblk1 V c 5 t : Vec Ideal S256 .f32) = (V c main_arg5 : S256.Idx → EReal) := by
  obtain ⟨-, -, -, -, -, -, -, e, -⟩ := proj_idx t
  funext y
  unfold iblk1
  rw [View.read_apply]
  show V c main_arg5 _ = V c main_arg5 _
  congr 1
  funext a
  apply Fin.ext
  match a with
  | ⟨0, _⟩ => show win1_5.index t (0 : Fin 1) * 256 + 1 * (y 0).val = (y 0).val; omega

/-- What point `t` writes back is block `t` of the array of normalised projections of the six input arrays. -/
theorem proj_flushed (c : Dev nD) (t : Fin cfg1.N) :
    (dat1 V c).flushed 6 t = ((cfg1.win 6).blk t).view.read (Elt Ideal)
      (headFlat (V c main_v1) (V c main_arg1) (V c main_arg2) (V c main_arg3) (V c main_arg4) (V c main_arg5)) := by
  show (cfg1.win 6).cut (grid1.coords t) ((dat1 V c).after 6 t) = _
  rw [after1_6]
  unfold out1_6
  rw [View.canon_unit_zero hz3]
  simp only [View.ld_unit_zero (S := S16x2048) hz2, View.ld_unit_zero (S := S256x2048) hz2, View.ld_unit_zero (S := S256) hz1]
  obtain ⟨-, -, -, -, -, -, -, -, e0, e1, -⟩ := proj_idx t
  funext j
  refine ((congrArg (k1_pay1 (iblk1 V c 0 t) (iblk1 V c 1 t) (iblk1 V c 2 t) (iblk1 V c 3 t) (iblk1 V c 4 t) (iblk1 V c 5 t))
    (eq_ix3 (n0 := 16) (n1 := 256) (n2 := 512) j)).trans
    (proj_pay (iblk1 V c 0 t) (iblk1 V c 1 t) (iblk1 V c 2 t) (iblk1 V c 3 t) (iblk1 V c 4 t) (iblk1 V c 5 t) (j 0) (j 1) (j 2))).trans ?_
  rw [View.read_apply, proj_block0 V c t, proj_block1 V c t, proj_block2 V c t, proj_block3 V c t, proj_block4 V c t,
    proj_block5 V c t]
  unfold headFlat
  congr 1
  · apply Fin.ext
    show (j 0).val = win1_6.index t (0 : Fin 3) * 16 + 1 * (j 0).val
    omega
  · apply Fin.ext
    show (j 1).val = win1_6.index t (1 : Fin 3) * 256 + 1 * (j 1).val
    omega

/-- An index of the output array is in point `t`'s block iff each coordinate is in the block's range on its axis. -/
theorem proj_mem (t : Fin cfg1.N) (i : S16x256x4096.Idx) :
    i ∈ ((cfg1.win 6).blk t).view.set ↔ ∀ a : Fin 3, win1_6.index t a * S16x256x512.size a ≤ (i a).val
      ∧ (i a).val < win1_6.index t a * S16x256x512.size a + S16x256x512.size a := by
  show i ∈ ((View.whole main_v2).slice (win1_6.rect t)).set ↔ _
  rw [View.set_slice_whole, Rect.mem_set_unit]
  exact Iff.rfl

/-- After the projection call its output array holds the normalised projections of its six input arrays. -/
theorem proj_final (c : Dev nD) : (dat1 V c).arrAt 6 cfg1.N
    = headFlat (V c main_v1) (V c main_arg1) (V c main_arg2) (V c main_arg3) (V c main_arg4) (V c main_arg5) :=
  (dat1 V c).arrAt_eq_of_cover 6 _ (fun t _ => proj_flushed V c t) fun i => by
    have hN : cfg1.N = 8 := N_1
    have hi0 : (i 0).val < 16 := (i 0).isLt
    have hi1 : (i 1).val < 256 := (i 1).isLt
    have hi2 : (i 2).val < 4096 := (i 2).isLt
    let t : Fin cfg1.N := ⟨(i 2).val / 512, by rw [hN]; omega⟩
    obtain ⟨-, -, -, -, -, -, -, -, e0, e1, e2⟩ := proj_idx t
    have e2' : win1_6.index t (2 : Fin 3) = (i 2).val / 512 := e2
    refine ⟨t, flush1_6 t, ?_⟩
    rw [proj_mem]
    intro a
    match a with
    | ⟨0, _⟩ =>
      show win1_6.index t (0 : Fin 3) * 16 ≤ (i 0).val ∧ (i 0).val < win1_6.index t (0 : Fin 3) * 16 + 16
      omega
    | ⟨1, _⟩ =>
      show win1_6.index t (1 : Fin 3) * 256 ≤ (i 1).val ∧ (i 1).val < win1_6.index t (1 : Fin 3) * 256 + 256
      omega
    | ⟨2, _⟩ =>
      show win1_6.index t (2 : Fin 3) * 512 ≤ (i 2).val ∧ (i 2).val < win1_6.index t (2 : Fin 3) * 512 + 512
      omega

end Cert.KernelIdeal.Arrays

end
-- ==== Proof.Sums.lean ====
/-
  Three ways of writing the sum of one image plane.

  A plane of the input is 64 × 64 numbers.  The pooling kernel sees it flattened to 4096 numbers and adds them
  along that one axis; the reference adds, over the whole four-axis index set, the entries whose first two
  coordinates are the plane's.  Both are the double sum over the two plane coordinates: addition of extended reals
  is commutative and associative, so only the index sets have to be matched.
-/
import Idealize.ShloMosaic.Lib.ValueIdx
import Idealize.ShloMosaic.PureOps.Reduce

noncomputable section

open scoped BigOperators

namespace Cert.PoolSums

open Idealize.ShloMosaic Idealize.ShloMosaic.ValueIdx

/-- A sum over the 4096 flattened positions is the double sum over rows and columns, position `64·h + w`. -/
theorem sum_flat {M : Type*} [AddCommMonoid M] (f : Fin 4096 → M) :
    ∑ k : Fin 4096, f k = ∑ h : Fin 64, ∑ w : Fin 64, f ⟨64 * h.val + w.val, by omega⟩ := by
  rw [← Equiv.sum_comp (finProdFinEquiv (m := 64) (n := 64)) f, Fintype.sum_prod_type]
  refine Finset.sum_congr rfl fun h _ => Finset.sum_congr rfl fun w _ => ?_
  exact congrArg f (Fin.ext (by
    show w.val + 64 * h.val = 64 * h.val + w.val
    omega))

/-- An index of the input reduces (over its two plane axes) to `(b, c)` exactly when its first two coordinates are
    `b` and `c`. -/
theorem drop_eq_iff (hr : (⟨4, ![16, 2048, 64, 64]⟩ : Shape).ReducesTo [2, 3] ⟨2, ![16, 2048]⟩)
    (i : (⟨4, ![16, 2048, 64, 64]⟩ : Shape).Idx) (b : Fin 16) (c : Fin 2048) :
    hr.drop i = ix2 b c ↔ (i 0 = b ∧ i 1 = c) := by
  constructor
  · intro h
    have h0 : ((hr.drop i) 0 : Nat) = b.val := by rw [h]
    have h1 : ((hr.drop i) 1 : Nat) = c.val := by rw [h]
    rw [Shape.ReducesTo.drop_apply_val_of_eq hr i 0 0] at h0
    rw [Shape.ReducesTo.drop_apply_val_of_eq hr i 1 1] at h1
    exact ⟨Fin.ext h0, Fin.ext h1⟩
  · rintro ⟨rfl, rfl⟩
    funext a
    apply Fin.ext
    match a with
    | ⟨0, _⟩ => exact Shape.ReducesTo.drop_apply_val_of_eq hr i 0 0
    | ⟨1, _⟩ => exact Shape.ReducesTo.drop_apply_val_of_eq hr i 1 1

/-- The sum of the entries that reduce to `(b, c)` is the double sum over the plane `(b, c)`. -/
theorem sum_fiber {M : Type*} [AddCommMonoid M]
    (hr : (⟨4, ![16, 2048, 64, 64]⟩ : Shape).ReducesTo [2, 3] ⟨2, ![16, 2048]⟩)
    (x : (⟨4, ![16, 2048, 64, 64]⟩ : Shape).Idx → M) (b : Fin 16) (c : Fin 2048) :
    ∑ i ∈ Finset.univ.filter (fun i => hr.drop i = ix2 b c), x i = ∑ h : Fin 64, ∑ w : Fin 64, x (ix4 b c h w) := by
  rw [show (∑ h : Fin 64, ∑ w : Fin 64, x (ix4 b c h w)) = ∑ p : Fin 64 × Fin 64, x (ix4 b c p.1 p.2) from
    (Fintype.sum_prod_type (fun p : Fin 64 × Fin 64 => x (ix4 b c p.1 p.2))).symm]
  refine Finset.sum_nbij' (fun i => ((i 2 : Fin 64), (i 3 : Fin 64))) (fun p => ix4 b c p.1 p.2) ?_ ?_ ?_ ?_ ?_
  · intro i _; exact Finset.mem_univ _
  · intro p _
    rw [Finset.mem_filter]
    exact ⟨Finset.mem_univ _, (drop_eq_iff hr _ b c).mpr ⟨rfl, rfl⟩⟩
  · intro i hi
    obtain ⟨e0, e1⟩ := (drop_eq_iff hr i b c).mp (Finset.mem_filter.mp hi).2
    subst e0; subst e1
    exact (eq_ix4 i).symm
  · intro p _; rfl
  · intro i hi
    obtain ⟨e0, e1⟩ := (drop_eq_iff hr i b c).mp (Finset.mem_filter.mp hi).2
    subst e0; subst e1
    exact congrArg x (eq_ix4 i)

end Cert.PoolSums

end
-- ==== Proof.Flatten.lean ====
/-
  The two host reshapes around the pallas_calls, in terms of the layer's function.

  Before the pooling call the input's two plane axes are flattened, position (h, w) going to 64·h + w; the row
  averages of the flattened array are therefore the plane averages of the input.  After the projection call the
  4096 flattened positions are unfolded back into 64 × 64; since the projection's output does not depend on the
  position, the unfolded array holds, at (b, o, h, w), the normalised projection for (b, o).
-/
import proofs.«136473_j38268158607596_2_alg».proof.Proof.Spec
import proofs.«136473_j38268158607596_2_alg».proof.Proof.Sums
import Idealize.ShloMosaic.Lib.Pipeline.Value
import Idealize.ShloMosaic.Lib.ValueIdx

noncomputable section

open scoped BigOperators

namespace Cert.PoolFlatten

open Cert.PoolSpec Cert.PoolSums
open Idealize.ShloMosaic Idealize.ShloMosaic.ValueIdx

/-- The flattened input at (b, c, 64·h + w) is the input at (b, c, h, w). -/
theorem flatten_apply (x : (⟨4, ![16, 2048, 64, 64]⟩ : Shape).Idx → EReal)
    (hc : (⟨4, ![16, 2048, 64, 64]⟩ : Shape).ShapeCasts ⟨3, ![16, 2048, 4096]⟩)
    (b : Fin 16) (c : Fin 2048) (h w : Fin 64) :
    shapeCast ⟨3, ![16, 2048, 4096]⟩ x hc (ix3 b c ⟨64 * h.val + w.val, by omega⟩) = x (ix4 b c h w) :=
  shapeCast_apply x hc _ _ (by
    rw [Shape.rowMajor_val_four, Shape.rowMajor_val_three]
    show ((b.val * 2048 + c.val) * 64 + h.val) * 64 + w.val = (b.val * 2048 + c.val) * 4096 + (64 * h.val + w.val)
    omega)

/-- The row averages of the flattened input are the plane averages of the input. -/
theorem rowMean_flatten (x : (⟨4, ![16, 2048, 64, 64]⟩ : Shape).Idx → EReal)
    (hc : (⟨4, ![16, 2048, 64, 64]⟩ : Shape).ShapeCasts ⟨3, ![16, 2048, 4096]⟩) :
    rowMean (shapeCast ⟨3, ![16, 2048, 4096]⟩ x hc) = fun j => planeMean x (j 0) (j 1) := by
  funext j
  obtain ⟨b, c, rfl⟩ : ∃ (b : Fin 16) (c : Fin 2048), j = ix2 b c := ⟨j 0, j 1, eq_ix2 j⟩
  show (∑ k : Fin 4096, shapeCast ⟨3, ![16, 2048, 4096]⟩ x hc (ix3 b c k)) * _ = (∑ h : Fin 64, ∑ w : Fin 64, x (ix4 b c h w)) * _
  rw [sum_flat]
  refine congrArg (· * Ideal.ofBits .f32 0x39800000#32) ?_
  exact Finset.sum_congr rfl fun h _ => Finset.sum_congr rfl fun w _ => flatten_apply x hc b c h w

/-- The projection's flattened output, unfolded to planes, holds at (b, o, h, w) the value for (b, o). -/
theorem unflatten_headFlat (p : (⟨2, ![16, 2048]⟩ : Shape).Idx → EReal) (W : (⟨2, ![256, 2048]⟩ : Shape).Idx → EReal)
    (g be mu va : (⟨1, ![256]⟩ : Shape).Idx → EReal)
    (hc : (⟨3, ![16, 256, 4096]⟩ : Shape).ShapeCasts ⟨4, ![16, 256, 64, 64]⟩) :
    shapeCast ⟨4, ![16, 256, 64, 64]⟩ (headFlat p W g be mu va) hc = fun i => head p W g be mu va (i 0) (i 1) := by
  funext i
  obtain ⟨b, o, h, w, rfl⟩ : ∃ (b : Fin 16) (o : Fin 256) (h w : Fin 64), i = ix4 b o h w :=
    ⟨i 0, i 1, i 2, i 3, eq_ix4 i⟩
  refine (shapeCast_apply (headFlat p W g be mu va) hc (ix4 b o h w) (ix3 b o ⟨64 * h.val + w.val, by omega⟩) ?_).trans rfl
  rw [Shape.rowMajor_val_three, Shape.rowMajor_val_four]
  show (b.val * 256 + o.val) * 4096 + (64 * h.val + w.val) = ((b.val * 256 + o.val) * 64 + h.val) * 64 + w.val
  omega

/-- So the whole kernel-side chain — flatten, pool, project, unflatten — is the layer's function. -/
theorem chain_eq_result (x : (⟨4, ![16, 2048, 64, 64]⟩ : Shape).Idx → EReal) (W : (⟨2, ![256, 2048]⟩ : Shape).Idx → EReal)
    (g be mu va : (⟨1, ![256]⟩ : Shape).Idx → EReal)
    (h0 : (⟨4, ![16, 2048, 64, 64]⟩ : Shape).ShapeCasts ⟨3, ![16, 2048, 4096]⟩)
    (h1 : (⟨3, ![16, 256, 4096]⟩ : Shape).ShapeCasts ⟨4, ![16, 256, 64, 64]⟩) :
    shapeCast ⟨4, ![16, 256, 64, 64]⟩
        (headFlat (rowMean (shapeCast ⟨3, ![16, 2048, 4096]⟩ x h0)) W g be mu va) h1
      = result x W g be mu va := by
  rw [unflatten_headFlat, rowMean_flatten]
  rfl

end Cert.PoolFlatten

end
-- ==== Proof.KernelValue.lean ====
/-
  The kernel program's result array, as the layer's function of the argument arrays.

  The run of the program (module `RunAll`) ends with every buffer at the contents the last boundary assigns it.
  Walking that assignment back from the result array:
    • the result is the host reshape of the projection call's output array;
    • that array is what the projection call's write-backs leave: the normalised projections of the arrays the call
      was entered with (module `Blocks`) — the pooling call's output and the five weight and statistics arguments,
      which nothing before the call has written;
    • the pooling call's output is what its write-backs leave: the row averages of the array it was entered with;
    • that array is the host reshape of the input argument.
  Flatten, pool, project, unflatten is the layer's function (module `Flatten`).
-/
import proofs.«136473_j38268158607596_2_alg».proof.Proof.RunAll
import proofs.«136473_j38268158607596_2_alg».proof.Proof.Blocks
import proofs.«136473_j38268158607596_2_alg».proof.Proof.Flatten
import Idealize.ShloMosaic.Lib.StableHlo.Run

set_option maxRecDepth 16384

noncomputable section

namespace Cert.KernelIdeal.Whole

open Cert.KernelIdeal Cert.KernelIdeal.Gen Cert.KernelIdeal.Arrays Cert.PoolSpec Cert.PoolFlatten
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The pooling call is entered with the flattened input in its input array. -/
theorem entry_flat (c : Dev nD) :
    (V1 m ρ c main_v0 : S16x2048x4096.Idx → EReal)
      = shapeCast S16x2048x4096 (m ((c : Thread nD τ).loc main_arg0)) shapeCasts_S16x2048x64x64_S16x2048x4096 := by
  show StableHlo.after hostOps0 (W0 m ρ c) (Proc.devRef .tc main_v0) = _
  after_results
  rfl

/-- The projection call is entered with the weights and the four per-channel vectors as launched … -/
theorem entry_arg1 (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results
theorem entry_arg2 (c : Dev nD) : V2 m ρ c main_arg2 = m ((c : Thread nD τ).loc main_arg2) := by
  refine (W2_of_ne m ρ c main_arg2 (by decide)).trans ?_
  show StableHlo.after hostOps0 (W0 m ρ c) (Proc.devRef .tc main_arg2) = _
  after_results
theorem entry_arg3 (c : Dev nD) : V2 m ρ c main_arg3 = m ((c : Thread nD τ).loc main_arg3) := by
  refine (W2_of_ne m ρ c main_arg3 (by decide)).trans ?_
  show StableHlo.after hostOps0 (W0 m ρ c) (Proc.devRef .tc main_arg3) = _
  after_results
theorem entry_arg4 (c : Dev nD) : V2 m ρ c main_arg4 = m ((c : Thread nD τ).loc main_arg4) := by
  refine (W2_of_ne m ρ c main_arg4 (by decide)).trans ?_
  show StableHlo.after hostOps0 (W0 m ρ c) (Proc.devRef .tc main_arg4) = _
  after_results
theorem entry_arg5 (c : Dev nD) : V2 m ρ c main_arg5 = m ((c : Thread nD τ).loc main_arg5) := by
  refine (W2_of_ne m ρ c main_arg5 (by decide)).trans ?_
  show StableHlo.after hostOps0 (W0 m ρ c) (Proc.devRef .tc main_arg5) = _
  after_results

/-- … and with the matrix of plane averages, flattened-row form, in its first input array. -/
theorem entry_pooled (c : Dev nD) :
    (V2 m ρ c main_v1 : S16x2048.Idx → EReal)
      = rowMean (shapeCast S16x2048x4096 (m ((c : Thread nD τ).loc main_arg0)) shapeCasts_S16x2048x64x64_S16x2048x4096) := by
  refine (W2_arr m ρ c 1).trans ?_
  rw [pool_final (V1 m ρ) c, entry_flat]

/-- The projection call's output array after the call. -/
theorem exit_flat (c : Dev nD) :
    (W3 m ρ c (Proc.devRef .tc main_v2) : S16x256x4096.Idx → EReal)
      = headFlat (rowMean (shapeCast S16x2048x4096 (m ((c : Thread nD τ).loc main_arg0)) shapeCasts_S16x2048x64x64_S16x2048x4096))
          (m ((c : Thread nD τ).loc main_arg1)) (m ((c : Thread nD τ).loc main_arg2)) (m ((c : Thread nD τ).loc main_arg3))
          (m ((c : Thread nD τ).loc main_arg4)) (m ((c : Thread nD τ).loc main_arg5)) := by
  refine (W3_arr m ρ c 6).trans ?_
  rw [proj_final (V2 m ρ) c, entry_pooled, entry_arg1, entry_arg2, entry_arg3, entry_arg4, entry_arg5]

/-- The result array at the last boundary is the layer's function of the argument arrays. -/
theorem result_value (c : Dev nD) :
    (W4 m ρ c (Proc.devRef .tc main_v3) : S16x256x64x64.Idx → EReal)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e : (W4 m ρ c (Proc.devRef .tc main_v3) : S16x256x64x64.Idx → EReal)
      = shapeCast S16x256x64x64 (W3 m ρ c (Proc.devRef .tc main_v2)) shapeCasts_S16x256x4096_S16x256x64x64 := by
    show StableHlo.after hostOps2 (W3 m ρ c) (Proc.devRef .tc main_v3) = _
    after_results
    rfl
  rw [e, exit_flat]
  exact chain_eq_result _ _ _ _ _ _ _ _

/-- THE RUN, READ: every weakly fair execution of the kernel program terminates without a fault, the result array
    ends at the layer's function of the argument arrays, and the argument arrays end as launched. -/
theorem run : θ_run defs (onTc (τ := τ) (main (F := Ideal))) ⟨m, fun _ => 0, ρ⟩ (fun r => ∀ c : Dev nD,
      r.2.mem ((c : Thread nD τ).loc main_v3)
        = result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c =>
    ⟨(h c _ (mem_uc main_v3 (by decide))).trans (result_value m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩)
    (run_all m ρ)

end Cert.KernelIdeal.Whole

end
-- ==== Proof.Consts.lean ====
/-
  The two float words of the average, as the extended reals they denote.

  The pooling kernel multiplies a row's sum by the word of 2⁻¹² = 1/4096; the reference divides the same sum by
  the word of 4096.  Both words are exact: dividing an extended real by the real 4096 is multiplying it by the
  real 1/4096, so the two averages are one function of the sum, at the infinities too.
-/
import Idealize.ShloMosaic.PureOps.Ideal

noncomputable section

namespace Cert.PoolConsts

open Idealize.ShloMosaic

/-- The word of `4096.0` denotes the real 4096. -/
theorem ofBits_4096 : Ideal.ofBits .f32 0x45800000#32 = ((4096 : ℝ) : EReal) := by
  simp [Ideal.ofBits, Ideal.ieee, -EReal.coe_mul]; norm_num

/-- The word of `2.44140625e-4` denotes the real 1/4096. -/
theorem ofBits_inv4096 : Ideal.ofBits .f32 0x39800000#32 = ((1 / 4096 : ℝ) : EReal) := by
  simp [Ideal.ofBits, Ideal.ieee, -EReal.coe_mul]; norm_num

/-- Dividing by the word of 4096 is multiplying by the word of 1/4096, on every extended real. -/
theorem div_4096 (s : EReal) :
    Ideal.div s (Ideal.ofBits .f32 0x45800000#32) = s * Ideal.ofBits .f32 0x39800000#32 := by
  rw [ofBits_4096, ofBits_inv4096]
  exact Ideal.div_coe (by norm_num) s

end Cert.PoolConsts

end
-- ==== Proof.Reference.lean ====
/-
  The reference computes the layer's function.

  Read one operation at a time (the generated index-by-index lemmas), the reference's result at (b, o, h, w) is

      max ((Σ_c ((0 + Σ_{(h,w)} x[b,c,h,w]) / 4096) · W[o,c] − μ[o]) · (γ[o] · rsqrt(σ²[o] + ε)) + β[o]) 0.

  Its sum over the two plane axes is the sum over the entries that reduce to (b, c), which is the double sum over
  the plane; the initial value 0 disappears; and dividing by the word of 4096 is multiplying by the word of 2⁻¹².
  Everything else is spelt as in the layer's function.
-/
import proofs.«136473_j38268158607596_2_alg».proof.Proof.Gen.ReferenceIdeal.Read
import proofs.«136473_j38268158607596_2_alg».proof.Proof.Spec
import proofs.«136473_j38268158607596_2_alg».proof.Proof.Sums
import proofs.«136473_j38268158607596_2_alg».proof.Proof.Consts
import Idealize.ShloMosaic.Lib.IdealHost
import Idealize.ShloMosaic.PureOps.Ideal.Laws

noncomputable section

open scoped BigOperators

namespace Cert.ReferenceIdeal.Layer

open Cert.ReferenceIdeal Cert.ReferenceIdeal.Gen Cert.ReferenceIdeal.Read Cert.PoolSpec Cert.PoolSums Cert.PoolConsts
open Idealize.ShloMosaic Idealize.ShloMosaic.TcCoe Idealize.ShloMosaic.ValueIdx

variable (x0 : (⟨S16x2048x64x64, .f32⟩ : BufTy).Contents (Elt Ideal)) (x1 : (⟨S256x2048, .f32⟩ : BufTy).Contents (Elt Ideal))
  (x2 x3 x4 x5 : (⟨S256, .f32⟩ : BufTy).Contents (Elt Ideal))

/-- The reference's sum over the two plane axes, at (b, c): zero plus the double sum over the plane. -/
theorem plane_sum (b : Fin 16) (c : Fin 2048) :
    val_main_v0 (F := Ideal) x0 (ix2 b c) = 0 + ∑ h : Fin 64, ∑ w : Fin 64, x0 (ix4 b c h w) := by
  unfold val_main_v0
  show Ideal.hostReduceAdd reducesTo_S16x2048x64x64_S16x2048_d2_3 x0 (Ideal.ofBits .f32 0x00000000#32) (ix2 b c) = _
  unfold Ideal.hostReduceAdd
  rw [sum_fiber reducesTo_S16x2048x64x64_S16x2048_d2_3 x0 b c, Ideal.ofBits_zero_f32]

/-- The reference's average of plane (b, c) is the layer's. -/
theorem plane_mean (b : Fin 16) (c : Fin 2048) : val_main_v2 (F := Ideal) x0 (ix2 b c) = planeMean x0 b c := by
  rw [val_main_v2_apply, val_main_v1_apply, val_main_cst_0_apply, plane_sum]
  show Ideal.div (0 + _) (Ideal.ofBits .f32 0x45800000#32) = _
  rw [div_4096, zero_add]
  rfl

/-- The reference's projection at (b, o). -/
theorem projection (b : Fin 16) (o : Fin 256) :
    val_main_v3 (F := Ideal) x0 x1 (ix2 b o) = ∑ c : Fin 2048, planeMean x0 b c * x1 (ix2 o c) := by
  rw [val_main_v3_apply]
  refine Finset.sum_congr rfl fun k _ => ?_
  have el : lidx_main_v3 (ix2 b o) k = ix2 b k := funext fun a => Fin.ext (by
    match a with
    | ⟨0, _⟩ => rfl
    | ⟨1, _⟩ => rfl)
  have er : ridx_main_v3 (ix2 b o) k = ix2 o k := funext fun a => Fin.ext (by
    match a with
    | ⟨0, _⟩ => rfl
    | ⟨1, _⟩ => rfl)
  rw [el, er, plane_mean]

/-- A per-channel vector repeated over the batch rows reads, at (b, o), its entry o: the running mean … -/
theorem mean_row (b : Fin 16) (o : Fin 256) : val_main_v8 (F := Ideal) x4 (ix2 b o) = x4 (ix1 o) := by
  rw [val_main_v8_apply, val_main_v7_apply]
  exact congrArg x4 (funext fun a => Fin.ext (by
    match a with
    | ⟨0, _⟩ => rfl))

/-- … the scale γ · rsqrt(σ² + ε) … -/
theorem scale_row (b : Fin 16) (o : Fin 256) :
    val_main_v12 (F := Ideal) x2 x5 (ix2 b o)
      = x2 (ix1 o) * Ideal.rsqrt (x5 (ix1 o) + Ideal.ofBits .f32 0x3727C5AC#32) := by
  rw [val_main_v12_apply, val_main_v11_apply, val_main_v10_apply, val_main_v6_apply, val_main_v5_apply, val_main_v4_apply,
    val_main_cst_1_apply]
  have e : idx_main_v11 (idx_main_v12 (ix2 b o)) = ix1 o := funext fun a => Fin.ext (by
    match a with
    | ⟨0, _⟩ => rfl)
  rw [e]
  rfl

/-- … and the shift β. -/
theorem shift_row (b : Fin 16) (o : Fin 256) : val_main_v15 (F := Ideal) x3 (ix2 b o) = x3 (ix1 o) := by
  rw [val_main_v15_apply, val_main_v14_apply]
  exact congrArg x3 (funext fun a => Fin.ext (by
    match a with
    | ⟨0, _⟩ => rfl))

/-- The reference's result is the layer's function of its six arguments. -/
theorem result_eq : val_main_v20 (F := Ideal) x0 x1 x2 x3 x4 x5 = result x0 x1 x2 x3 x4 x5 := by
  funext i
  obtain ⟨b, o, h, w, rfl⟩ : ∃ (b : Fin 16) (o : Fin 256) (h w : Fin 64), i = ix4 b o h w :=
    ⟨i 0, i 1, i 2, i 3, eq_ix4 i⟩
  rw [val_main_v20_apply, val_main_v19_apply]
  have hj : idx_main_v19 (idx_main_v20 (ix4 b o h w)) = ix2 b o := funext fun a => Fin.ext (by
    match a with
    | ⟨0, _⟩ => rfl
    | ⟨1, _⟩ => rfl)
  rw [hj, val_main_v18_apply, val_main_v16_apply, val_main_v13_apply, val_main_v9_apply, projection, mean_row, scale_row,
    shift_row, val_main_v17_apply, val_main_cst_2_apply]
  rfl

end Cert.ReferenceIdeal.Layer

end
-- ==== Proof.lean ====
/-
  The certificate of the pooling-and-projection layer: a global average pool over every 64 × 64 plane, a 1 × 1
  convolution (a product with the transposed weight matrix), an inference-mode batch normalisation, a rectifier, and
  the result written at every position of the output plane — two pallas_calls between two host reshapes, against
  the same layer written with jnp.

  At the extended reals both programs compute ONE function of the six argument arrays (`Cert.PoolSpec.result`):
  the kernel program by its run read boundary by boundary (`Cert.KernelIdeal.Whole.run`), the reference by its run
  read operation by operation (`Cert.ReferenceIdeal.Layer.result_eq`).  The two differ only in how a plane is
  added up (flattened and in blocks, against a sum over two axes — addition is commutative and associative) and in
  how the sum becomes an average (times the word of 2⁻¹², against divided by the word of 4096 — the same map on
  every extended real).  No step needs the inputs to be finite.  The three frames are the generated ones (the
  reference's is its run with the result dropped), and the idealization rewrote nothing, so `preserves` is trivial.
-/
import proofs.«136473_j38268158607596_2_alg».proof.Defs
import proofs.«136473_j38268158607596_2_alg».proof.Proof.Gen.Kernel
import proofs.«136473_j38268158607596_2_alg».proof.Proof.Gen.Kernel.Skeleton
import proofs.«136473_j38268158607596_2_alg».proof.Proof.Gen.Kernel.Launch
import proofs.«136473_j38268158607596_2_alg».proof.Proof.Gen.Kernel.Points
import proofs.«136473_j38268158607596_2_alg».proof.Proof.Gen.Kernel.Frame
import proofs.«136473_j38268158607596_2_alg».proof.Proof.Gen.KernelIdeal
import proofs.«136473_j38268158607596_2_alg».proof.Proof.Gen.KernelIdeal.Skeleton
import proofs.«136473_j38268158607596_2_alg».proof.Proof.Gen.KernelIdeal.Launch
import proofs.«136473_j38268158607596_2_alg».proof.Proof.Gen.KernelIdeal.Points
import proofs.«136473_j38268158607596_2_alg».proof.Proof.Gen.KernelIdeal.Frame
import proofs.«136473_j38268158607596_2_alg».proof.Proof.Gen.ReferenceIdeal
import proofs.«136473_j38268158607596_2_alg».proof.Proof.Gen.ReferenceIdeal.Run
import proofs.«136473_j38268158607596_2_alg».proof.Proof.Gen.ReferenceIdeal.Read
import proofs.«136473_j38268158607596_2_alg».proof.Proof.Gen.Pre_finite_inputs
import proofs.«136473_j38268158607596_2_alg».proof.Proof.KernelValue
import proofs.«136473_j38268158607596_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the six arguments both programs end with the layer's function of those arguments in
    their result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Layer.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
